-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8 : Shape := ⟨1, ![8]⟩
abbrev S2048x8 : Shape := ⟨2, ![2048, 8]⟩
abbrev S512x2048 : Shape := ⟨2, ![512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  main_v18

def fn {F : FTy → Type} [FloatOps F] (main_arg0 : FVec F S8x4096x512 .f32) (main_arg1 : FVec F S8 .f32) (main_arg2 : FVec F S2048x8 .f32) (main_arg3 : FVec F S512x2048 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_v13 main_v16
-- ==== Kernel.lean ====
abbrev S8x4096x512 : Shape := ⟨3, ![8, 4096, 512]⟩
abbrev S8 : Shape := ⟨1, ![8]⟩
abbrev S2048x8 : Shape := ⟨2, ![2048, 8]⟩
abbrev S512x2048 : Shape := ⟨2, ![512, 2048]⟩
abbrev S32768x512 : Shape := ⟨2, ![32768, 512]⟩
abbrev S32768x8 : Shape := ⟨2, ![32768, 8]⟩
abbrev S1x8 : Shape := ⟨2, ![1, 8]⟩
abbrev S8x2048 : Shape := ⟨2, ![8, 2048]⟩
abbrev S2048x512 : Shape := ⟨2, ![2048, 512]⟩
abbrev S1024x8 : Shape := ⟨2, ![1024, 8]⟩
abbrev S1024x512 : Shape := ⟨2, ![1024, 512]⟩
abbrev S1024x2048 : Shape := ⟨2, ![1024, 2048]⟩

abbrev nBuf : Space → Nat
  | .hbm => 13
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S32768x512, .f32⟩
  | .hbm, ⟨5, _⟩ => ⟨S32768x8, .f32⟩
  | .hbm, ⟨6, _⟩ => ⟨S1x8, .f32⟩
  | .hbm, ⟨7, _⟩ => ⟨S8x2048, .f32⟩
  | .hbm, ⟨8, _⟩ => ⟨S8x2048, .bf16⟩
  | .hbm, ⟨9, _⟩ => ⟨S2048x512, .f32⟩
  | .hbm, ⟨10, _⟩ => ⟨S2048x512, .bf16⟩
  | .hbm, ⟨11, _⟩ => ⟨S32768x512, .f32⟩
  | .hbm, ⟨12, _⟩ => ⟨S8x4096x512, .f32⟩
  | .local _ .vmem, ⟨0, _⟩ => ⟨S1024x8, .f32⟩
  | .local _ .vmem, ⟨1, _⟩ => ⟨S1024x8, .f32⟩
  | .local _ .vmem, ⟨2, _⟩ => ⟨S1x8, .f32⟩
  | .local _ .vmem, ⟨3, _⟩ => ⟨S8x2048, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x512_S32768x512 : S8x4096x512.ShapeCasts S32768x512
  slices_S32768x512_S32768x8_0_0 : S32768x512.Slices ![0, 0] S32768x8
  shapeCasts_S8_S1x8 : S8.ShapeCasts S1x8
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S32768x512_S8x4096x512 : S32768x512.ShapeCasts S8x4096x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .f32 = 32 ∨ (Rect.block (s := S32768x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .bf16 = 32 ∨ (Rect.block (s := S8x2048) S8x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S32768x512.size a
  hwx0_4 : ∀ i : grid0.Coords, EltTy.bits .f32 = 32 ∨ (Rect.block (s := S32768x512) S1024x512.size (cc0_transform_4 i) (hinb0_4 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8 : Shape := ⟨1, ![8]⟩
abbrev S2048x8 : Shape := ⟨2, ![2048, 8]⟩
abbrev S512x2048 : Shape := ⟨2, ![512, 2048]⟩
abbrev S8x4096x8 : Shape := ⟨3, ![8, 4096, 8]⟩
abbrev S1x1x8 : Shape := ⟨3, ![1, 1, 8]⟩
abbrev S8x4096x2048 : Shape := ⟨3, ![8, 4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S8x4096x8, .f32⟩
  | .hbm, ⟨5, _⟩ => ⟨S1x1x8, .f32⟩
  | .hbm, ⟨6, _⟩ => ⟨S8x4096x8, .f32⟩
  | .hbm, ⟨7, _⟩ => ⟨S8x4096x8, .f32⟩
  | .hbm, ⟨8, _⟩ => ⟨S8x4096x8, .f32⟩
  | .hbm, ⟨9, _⟩ => ⟨S8x4096x2048, .f32⟩
  | .hbm, ⟨10, _⟩ => ⟨S_, .f32⟩
  | .hbm, ⟨11, _⟩ => ⟨S8x4096x2048, .f32⟩
  | .hbm, ⟨12, _⟩ => ⟨S8x4096x2048, .f32⟩
  | .hbm, ⟨13, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x2048 : S_.BroadcastsInDim S8x4096x2048 (![] : Fin 0 → Fin S8x4096x2048.rank)
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.TokenMap.lean ====
/-
  The function both programs compute, index by index, on the extended reals.

  A token is a row of features, of which only the first eight, `u`, are read. Feature `q` is shifted by its own
  angle `θ q` and replaced by the cosine of the sum. Hidden unit `f` is the positive part of the inner product of
  those eight cosines with row `f` of the first weight matrix, and output channel `e` is the inner product of the
  2048 hidden units with row `e` of the second weight matrix:

      out e = ∑ f, max (∑ q, cos (u q + θ q) · W₁ f q) 0 · W₂ e f.

  `token` is that number for one token and one output channel, over plain rows. `ffnAt` and `ffn` are the array of
  these numbers for the 8 × 4096 tokens of an `[8, 4096, 512]` input, and `ffnRows` is the same array with the two
  token axes merged into one axis of 32768 rows: row `n` is token `(n / 4096, n % 4096)`.

  Every sum here is a finite sum in the commutative monoid of extended reals, and the products are written in the
  order activation × weight on both layers, so nothing below needs the entries to be finite.
-/
import Idealize.ShloMosaic.PureOps.Ideal
import Idealize.ShloMosaic.Lib.ValueIdx

noncomputable section

open scoped BigOperators

namespace Cert.Ffn

open Idealize.ShloMosaic Idealize.ShloMosaic.ValueIdx

/-- One output channel of one token: `∑ f, max (∑ q, cos (u q + θ q) · w₁ f q) 0 · w₂ f`. -/
def token (u θ : Fin 8 → EReal) (w₁ : Fin 2048 → Fin 8 → EReal) (w₂ : Fin 2048 → EReal) : EReal :=
  ∑ f : Fin 2048, max (∑ q : Fin 8, Ideal.cos (u q + θ q) * w₁ f q) 0 * w₂ f

/-- Feature `q` of the eight that are read, as one of a token's 512 features. -/
abbrev feat (q : Fin 8) : Fin 512 := ⟨q.val, Nat.lt_of_lt_of_le q.isLt (by decide)⟩

/-- Output channel `e` of token `(b, s)`. -/
def ffnAt (x : (⟨3, ![8, 4096, 512]⟩ : Shape).Idx → EReal) (θ : (⟨1, ![8]⟩ : Shape).Idx → EReal)
    (W₁ : (⟨2, ![2048, 8]⟩ : Shape).Idx → EReal) (W₂ : (⟨2, ![512, 2048]⟩ : Shape).Idx → EReal)
    (b : Fin 8) (s : Fin 4096) (e : Fin 512) : EReal :=
  token (fun q => x (ix3 b s (feat q))) (fun q => θ (ix1 q)) (fun f q => W₁ (ix2 f q)) (fun f => W₂ (ix2 e f))

/-- The whole result, `[8, 4096, 512]`. -/
def ffn (x : (⟨3, ![8, 4096, 512]⟩ : Shape).Idx → EReal) (θ : (⟨1, ![8]⟩ : Shape).Idx → EReal)
    (W₁ : (⟨2, ![2048, 8]⟩ : Shape).Idx → EReal) (W₂ : (⟨2, ![512, 2048]⟩ : Shape).Idx → EReal) :
    (⟨3, ![8, 4096, 512]⟩ : Shape).Idx → EReal :=
  fun i => ffnAt x θ W₁ W₂ (i 0) (i 1) (i 2)

/-- Token `(n / 4096, n % 4096)` is row `n` of the merged token axis. -/
abbrev tokB (n : Fin 32768) : Fin 8 := ⟨n.val / 4096, by have := n.isLt; omega⟩
abbrev tokS (n : Fin 32768) : Fin 4096 := ⟨n.val % 4096, Nat.mod_lt _ (by decide)⟩

/-- The same result with the token axes merged, `[32768, 512]`. -/
def ffnRows (x : (⟨3, ![8, 4096, 512]⟩ : Shape).Idx → EReal) (θ : (⟨1, ![8]⟩ : Shape).Idx → EReal)
    (W₁ : (⟨2, ![2048, 8]⟩ : Shape).Idx → EReal) (W₂ : (⟨2, ![512, 2048]⟩ : Shape).Idx → EReal) :
    (⟨2, ![32768, 512]⟩ : Shape).Idx → EReal :=
  fun i => ffnAt x θ W₁ W₂ (tokB (i 0)) (tokS (i 0)) (i 1)

/-- `ffn` at an index given by its coordinates. -/
theorem ffn_apply (x : (⟨3, ![8, 4096, 512]⟩ : Shape).Idx → EReal) (θ : (⟨1, ![8]⟩ : Shape).Idx → EReal)
    (W₁ : (⟨2, ![2048, 8]⟩ : Shape).Idx → EReal) (W₂ : (⟨2, ![512, 2048]⟩ : Shape).Idx → EReal)
    (b : Fin 8) (s : Fin 4096) (e : Fin 512) :
    ffn x θ W₁ W₂ (ix3 b s e) = ffnAt x θ W₁ W₂ b s e := rfl

/-- `ffnRows` at an index given by its coordinates. -/
theorem ffnRows_apply (x : (⟨3, ![8, 4096, 512]⟩ : Shape).Idx → EReal) (θ : (⟨1, ![8]⟩ : Shape).Idx → EReal)
    (W₁ : (⟨2, ![2048, 8]⟩ : Shape).Idx → EReal) (W₂ : (⟨2, ![512, 2048]⟩ : Shape).Idx → EReal)
    (n : Fin 32768) (e : Fin 512) :
    ffnRows x θ W₁ W₂ (ix2 n e) = ffnAt x θ W₁ W₂ (tokB n) (tokS n) e := rfl

end Cert.Ffn

end
-- ==== Proof.ReferenceValue.lean ====
/-
  The reference's result, index by index, is `Cert.Ffn.ffn` of its four arguments.

  The reference slices the first eight features of every token, adds the angles (broadcast along the two token
  axes), takes cosines, contracts the feature axis with the first weight matrix, takes the positive part against a
  zero splat, and contracts the hidden axis with the second weight matrix. Read at `(b, s, e)`, outermost operation
  first, each contraction is a sum over its one contracted coordinate, the zero splat is the extended real `0`, and
  each layout operation reads one entry of its operand; what is left is `token` of row `(b, s)` of the input, the
  angles, the first weight matrix and row `e` of the second.
-/
import proofs.«176368_j65481071397135_2_alg».proof.Proof.Gen.ReferenceIdeal.Read
import proofs.«176368_j65481071397135_2_alg».proof.Proof.TokenMap
import Idealize.ShloMosaic.PureOps.Ideal.Laws

noncomputable section

open scoped BigOperators

namespace Cert.Ffn.Reference

open Cert.ReferenceIdeal Cert.ReferenceIdeal.Gen Cert.ReferenceIdeal.Read
open Idealize.ShloMosaic Idealize.ShloMosaic.ValueIdx

/-! ## The operand indices of each stage, by coordinates -/

theorem lidx7 (b : Fin 8) (s : Fin 4096) (e : Fin 512) (f : Fin 2048) :
    lidx_main_v7 (ix3 b s e) f = ix3 b s f :=
  funext fun a => Fin.ext (by match a with | ⟨0, _⟩ => rfl | ⟨1, _⟩ => rfl | ⟨2, _⟩ => rfl)

theorem ridx7 (b : Fin 8) (s : Fin 4096) (e : Fin 512) (f : Fin 2048) :
    ridx_main_v7 (ix3 b s e) f = ix2 e f :=
  funext fun a => Fin.ext (by match a with | ⟨0, _⟩ => rfl | ⟨1, _⟩ => rfl)

theorem lidx5 (b : Fin 8) (s : Fin 4096) (f : Fin 2048) (q : Fin 8) :
    lidx_main_v5 (ix3 b s f) q = ix3 b s q :=
  funext fun a => Fin.ext (by match a with | ⟨0, _⟩ => rfl | ⟨1, _⟩ => rfl | ⟨2, _⟩ => rfl)

theorem ridx5 (b : Fin 8) (s : Fin 4096) (f : Fin 2048) (q : Fin 8) :
    ridx_main_v5 (ix3 b s f) q = ix2 f q :=
  funext fun a => Fin.ext (by match a with | ⟨0, _⟩ => rfl | ⟨1, _⟩ => rfl)

theorem idx0 (b : Fin 8) (s : Fin 4096) (q : Fin 8) :
    idx_main_v0 (ix3 b s q) = ix3 b s (feat q) :=
  funext fun a => Fin.ext (by match a with | ⟨0, _⟩ => rfl | ⟨1, _⟩ => rfl | ⟨2, _⟩ => rfl)

theorem idx12 (b : Fin 8) (s : Fin 4096) (q : Fin 8) :
    idx_main_v1 (idx_main_v2 (ix3 b s q)) = ix1 q :=
  funext fun a => Fin.ext (by match a with | ⟨0, _⟩ => rfl)

/-! ## The stages, read at an index -/

/-- The cosines, at token `(b, s)` and feature `q`. -/
theorem cosines_apply (x0 : FVec Ideal S8x4096x512 .f32) (x1 : FVec Ideal S8 .f32) (b : Fin 8) (s : Fin 4096) (q : Fin 8) :
    val_main_v4 (F := Ideal) x0 x1 (ix3 b s q) = Ideal.cos (x0 (ix3 b s (feat q)) + x1 (ix1 q)) := by
  rw [val_main_v4_apply, val_main_v3_apply, val_main_v0_apply, val_main_v2_apply, val_main_v1_apply, idx0, idx12]
  rfl

/-- A hidden unit, at token `(b, s)` and unit `f`. -/
theorem hidden_apply (x0 : FVec Ideal S8x4096x512 .f32) (x1 : FVec Ideal S8 .f32) (x2 : FVec Ideal S2048x8 .f32)
    (b : Fin 8) (s : Fin 4096) (f : Fin 2048) :
    val_main_v6 (F := Ideal) x0 x1 x2 (ix3 b s f)
      = max (∑ q : Fin 8, Ideal.cos (x0 (ix3 b s (feat q)) + x1 (ix1 q)) * x2 (ix2 f q)) 0 := by
  rw [val_main_v6_apply, val_main_v5_apply, val_main_call0_v0_apply, val_main_call0_cst_apply]
  show max _ (Ideal.ofBits .f32 0x00000000#32) = _
  rw [Ideal.ofBits_zero_f32]
  refine congrArg (fun z => max z 0) (Finset.sum_congr rfl fun q _ => ?_)
  rw [lidx5, ridx5, cosines_apply]

/-- The reference's result is `ffn`. -/
theorem result_eq (x0 : FVec Ideal S8x4096x512 .f32) (x1 : FVec Ideal S8 .f32) (x2 : FVec Ideal S2048x8 .f32)
    (x3 : FVec Ideal S512x2048 .f32) :
    val_main_v7 (F := Ideal) x0 x1 x2 x3 = ffn x0 x1 x2 x3 := by
  funext i
  obtain ⟨b, s, e, rfl⟩ : ∃ (b : Fin 8) (s : Fin 4096) (e : Fin 512), i = ix3 b s e := ⟨i 0, i 1, i 2, eq_ix3 i⟩
  rw [val_main_v7_apply, ffn_apply]
  unfold ffnAt token
  refine Finset.sum_congr rfl fun f _ => ?_
  rw [lidx7, ridx7, hidden_apply]

end Cert.Ffn.Reference

end
-- ==== Proof.BodyValue.lean ====
/-
  What the kernel body stores, index by index: one block of 1024 tokens at a time.

  The body loads a block `x0` of 1024 tokens by 8 features, the angles `x1` as a `[1, 8]` row, and the two weight
  matrices already transposed, `x2 : [8, 2048]` and `x3 : [2048, 512]`. It adds the angles to every token (a row
  broadcast), takes cosines, multiplies by `x2` into a zero accumulator, takes the positive part against a zero
  splat, multiplies by `x3` into a zero accumulator, and stores the `[1024, 512]` product. The two changes of
  float format on the way are the identity on extended reals, and a matrix product into the zero accumulator is
  the plain sum over its one contracted coordinate. So entry `(p, e)` of what is stored is `token` of row `p` of
  `x0`, the angle row, the columns of `x2` and column `e` of `x3`.
-/
import proofs.«176368_j65481071397135_2_alg».proof.Proof.Gen.KernelIdeal.Skeleton
import proofs.«176368_j65481071397135_2_alg».proof.Proof.TokenMap
import Idealize.ShloMosaic.PureOps.Ideal.Laws
import Idealize.ShloMosaic.Lib.Pipeline.Value
import Idealize.ShloMosaic.Lib.ValueIdx

noncomputable section

open scoped BigOperators

namespace Cert.Ffn.Body

open Cert.KernelIdeal Cert.KernelIdeal.Gen
open Idealize.ShloMosaic Idealize.ShloMosaic.ValueIdx

/-! ## The two products' operand indices

For a product of a `[rows, k]` matrix with a `[k, cols]` matrix, output entry `(r, c)` and contracted coordinate
`k` read the left operand at `(r, k)` and the right operand at `(k, c)`. -/

/-- The first product: `[1024, 8] × [8, 2048]`. -/
abbrev dotHidden := dot_S1024x8_S8x2048_S1024x2048_1_0_0_1_n_n
/-- The second product: `[1024, 2048] × [2048, 512]`. -/
abbrev dotOut := dot_S1024x2048_S2048x512_S1024x512_1_0_0_1_n_n

theorem hidden_lhs_0 (i : S1024x2048.Idx) (k : dotHidden.contr.Idx) : (dotHidden.lhsIdx i k 0).val = (i 0).val := by
  unfold DotDims.lhsIdx
  rw [dif_neg (show ¬(0 : Fin S1024x8.rank) ∈ dotHidden.lhsBatch by decide),
    dif_pos (show (0 : Fin S1024x8.rank) ∈ dotHidden.lhsNonContracting by decide)]
  rfl
theorem hidden_lhs_1 (i : S1024x2048.Idx) (k : dotHidden.contr.Idx) :
    (dotHidden.lhsIdx i k 1).val = (k ⟨0, by decide⟩).val :=
  dotHidden.lhsIdx_val_of_single rfl i k
theorem hidden_rhs_0 (i : S1024x2048.Idx) (k : dotHidden.contr.Idx) :
    (dotHidden.rhsIdx i k 0).val = (k ⟨0, by decide⟩).val :=
  dotHidden.rhsIdx_val_of_single rfl i k
theorem hidden_rhs_1 (i : S1024x2048.Idx) (k : dotHidden.contr.Idx) : (dotHidden.rhsIdx i k 1).val = (i 1).val := by
  unfold DotDims.rhsIdx
  rw [dif_neg (show ¬(1 : Fin S8x2048.rank) ∈ dotHidden.rhsBatch by decide),
    dif_pos (show (1 : Fin S8x2048.rank) ∈ dotHidden.rhsNonContracting by decide)]
  rfl

theorem out_lhs_0 (i : S1024x512.Idx) (k : dotOut.contr.Idx) : (dotOut.lhsIdx i k 0).val = (i 0).val := by
  unfold DotDims.lhsIdx
  rw [dif_neg (show ¬(0 : Fin S1024x2048.rank) ∈ dotOut.lhsBatch by decide),
    dif_pos (show (0 : Fin S1024x2048.rank) ∈ dotOut.lhsNonContracting by decide)]
  rfl
theorem out_lhs_1 (i : S1024x512.Idx) (k : dotOut.contr.Idx) :
    (dotOut.lhsIdx i k 1).val = (k ⟨0, by decide⟩).val :=
  dotOut.lhsIdx_val_of_single rfl i k
theorem out_rhs_0 (i : S1024x512.Idx) (k : dotOut.contr.Idx) :
    (dotOut.rhsIdx i k 0).val = (k ⟨0, by decide⟩).val :=
  dotOut.rhsIdx_val_of_single rfl i k
theorem out_rhs_1 (i : S1024x512.Idx) (k : dotOut.contr.Idx) : (dotOut.rhsIdx i k 1).val = (i 1).val := by
  unfold DotDims.rhsIdx
  rw [dif_neg (show ¬(1 : Fin S2048x512.rank) ∈ dotOut.rhsBatch by decide),
    dif_pos (show (1 : Fin S2048x512.rank) ∈ dotOut.rhsNonContracting by decide)]
  rfl

/-- A product into the zero accumulator, first layer: entry `(p, f)` is `∑ q, l (p, q) · r (q, f)`. -/
theorem hidden_product (l : FVec Ideal S1024x8 .bf16) (r : FVec Ideal S8x2048 .bf16) (p : Fin 1024) (f : Fin 2048) :
    FloatOps.matmul dotHidden none l r (constant (F := Ideal) S1024x2048 .f32 0x00000000#32) (ix2 p f)
      = ∑ q : Fin 8, l (ix2 p q) * r (ix2 q f) := by
  refine (Ideal.matmul_constant_zero_apply dotHidden none l r (ix2 p f)).trans ?_
  rw [← Equiv.sum_comp (contrEquiv1 dotHidden 8 rfl rfl).symm]
  refine Finset.sum_congr rfl fun q _ => ?_
  have hk := contrEquiv1_symm_val dotHidden 8 rfl rfl q
  have el : dotHidden.lhsIdx (ix2 p f) ((contrEquiv1 dotHidden 8 rfl rfl).symm q) = ix2 p q :=
    funext fun a => Fin.ext (by
      match a with
      | ⟨0, _⟩ => exact hidden_lhs_0 _ _
      | ⟨1, _⟩ => exact (hidden_lhs_1 _ _).trans hk)
  have er : dotHidden.rhsIdx (ix2 p f) ((contrEquiv1 dotHidden 8 rfl rfl).symm q) = ix2 q f :=
    funext fun a => Fin.ext (by
      match a with
      | ⟨0, _⟩ => exact (hidden_rhs_0 _ _).trans hk
      | ⟨1, _⟩ => exact hidden_rhs_1 _ _)
  rw [el, er]

/-- A product into the zero accumulator, second layer: entry `(p, e)` is `∑ f, l (p, f) · r (f, e)`. -/
theorem out_product (l : FVec Ideal S1024x2048 .bf16) (r : FVec Ideal S2048x512 .bf16) (p : Fin 1024) (e : Fin 512) :
    FloatOps.matmul dotOut none l r (constant (F := Ideal) S1024x512 .f32 0x00000000#32) (ix2 p e)
      = ∑ f : Fin 2048, l (ix2 p f) * r (ix2 f e) := by
  refine (Ideal.matmul_constant_zero_apply dotOut none l r (ix2 p e)).trans ?_
  rw [← Equiv.sum_comp (contrEquiv1 dotOut 2048 rfl rfl).symm]
  refine Finset.sum_congr rfl fun f _ => ?_
  have hk := contrEquiv1_symm_val dotOut 2048 rfl rfl f
  have el : dotOut.lhsIdx (ix2 p e) ((contrEquiv1 dotOut 2048 rfl rfl).symm f) = ix2 p f :=
    funext fun a => Fin.ext (by
      match a with
      | ⟨0, _⟩ => exact out_lhs_0 _ _
      | ⟨1, _⟩ => exact (out_lhs_1 _ _).trans hk)
  have er : dotOut.rhsIdx (ix2 p e) ((contrEquiv1 dotOut 2048 rfl rfl).symm f) = ix2 f e :=
    funext fun a => Fin.ext (by
      match a with
      | ⟨0, _⟩ => exact (out_rhs_0 _ _).trans hk
      | ⟨1, _⟩ => exact out_rhs_1 _ _)
  rw [el, er]

/-! ## The angles, broadcast to every token of the block -/

/-- The `[1, 8]` angle row broadcast to `[1024, 8]` reads, at token `p` and feature `q`, the row's entry `q`. -/
theorem angles_apply (v : FVec Ideal S1x8 .f32) (h : S1x8.Broadcasts S1024x8) (p : Fin 1024) (q : Fin 8) :
    broadcastTo S1024x8 v h (ix2 p q) = v (ix2 (0 : Fin 1) q) :=
  broadcastTo_apply v h (ix2 p q) (ix2 (0 : Fin 1) q) (fun a => by
    match a with
    | ⟨0, _⟩ => rfl
    | ⟨1, _⟩ => rfl)

/-! ## The stored block -/

/-- Entry `(p, e)` of what the body stores. -/
theorem stored_apply (x0 : FVec Ideal S1024x8 .f32) (x1 : FVec Ideal S1x8 .f32) (x2 : FVec Ideal S8x2048 .bf16)
    (x3 : FVec Ideal S2048x512 .bf16) (p : Fin 1024) (e : Fin 512) :
    k0_pay1 (F := Ideal) x0 x1 x2 x3 (ix2 p e)
      = token (fun q => x0 (ix2 p q)) (fun q => x1 (ix2 (0 : Fin 1) q)) (fun f q => x2 (ix2 q f)) (fun f => x3 (ix2 f e)) := by
  unfold k0_pay1 token
  refine (out_product _ _ p e).trans ?_
  refine Finset.sum_congr rfl fun f _ => ?_
  refine congrArg₂ (· * ·) ?_ (congrFun (shapeCast_self x3 _) (ix2 f e))
  show max (FloatOps.matmul dotHidden none _ _ (constant (F := Ideal) S1024x2048 .f32 0x00000000#32) (ix2 p f))
      (Ideal.ofBits .f32 0x00000000#32) = _
  rw [Ideal.ofBits_zero_f32]
  refine congrArg (fun z => max z 0) ((hidden_product _ _ p f).trans ?_)
  refine Finset.sum_congr rfl fun q _ => ?_
  refine congrArg₂ (· * ·) ?_ (congrFun (shapeCast_self x2 _) (ix2 q f))
  show Ideal.cos (shapeCast S1024x8 x0 _ (ix2 p q) + broadcastTo S1024x8 (shapeCast S1x8 x1 _) _ (ix2 p q)) = _
  rw [shapeCast_self x0, angles_apply, shapeCast_self x1]

end Cert.Ffn.Body

end
-- ==== Proof.StagedArrays.lean ====
/-
  What the region finds in the four arrays it stages, index by index.

  Before the region the program merges the two token axes of the input (a reshape to `[32768, 512]`), keeps the
  first eight features of every row (a slice), views the eight angles as a `[1, 8]` row (a reshape), and
  transposes each weight matrix, with a change of float format that is the identity on extended reals. So:
    * row `n`, feature `q` of the token array is feature `q` of token `(n / 4096, n % 4096)` of the input;
    * entry `(0, q)` of the angle row is angle `q`;
    * entry `(q, f)` of the first staged matrix is entry `(f, q)` of the first weight matrix;
    * entry `(f, e)` of the second staged matrix is entry `(e, f)` of the second weight matrix.
  A reshape keeps the row-major position of every entry; row `n` of 512 features and token `(n / 4096, n % 4096)`
  sit at the same position because `n = (n / 4096) · 4096 + n % 4096`.
-/
import proofs.«176368_j65481071397135_2_alg».proof.Proof.Gen.KernelIdeal.Frame
import proofs.«176368_j65481071397135_2_alg».proof.Proof.TokenMap
import Idealize.ShloMosaic.Lib.Pipeline.Value
import Idealize.ShloMosaic.Lib.StableHlo.Run
import Idealize.ShloMosaic.Lib.ValueIdx

noncomputable section

namespace Cert.Ffn.Staged

open Cert.KernelIdeal Cert.KernelIdeal.Gen
open Idealize.ShloMosaic Idealize.ShloMosaic.ValueIdx Idealize.ShloMosaic.TcCoe Idealize.SL.Sem
open Idealize.ShloMosaic.StableHlo

/-! ## The layout operations, read at an index -/

/-- Keeping the first eight features of every row: row `n`, feature `q`. -/
theorem first_features_apply (y : FVec Ideal S32768x512 .f32) (h₂ : S32768x512.Slices ![0, 0] S32768x8)
    (n : Fin 32768) (q : Fin 8) :
    extractStridedSlice S32768x8 ![0, 0] y h₂ (ix2 n q) = y (ix2 n (feat q)) :=
  extractStridedSlice_apply ![0, 0] y h₂ (ix2 n q) (ix2 n (feat q)) (fun a => by
    match a with
    | ⟨0, _⟩ => show n.val = 0 + n.val; omega
    | ⟨1, _⟩ => show q.val = 0 + q.val; omega)

/-- Merging the two token axes: row `n` is token `(n / 4096, n % 4096)`. -/
theorem merged_apply (x : FVec Ideal S8x4096x512 .f32) (h₁ : S8x4096x512.ShapeCasts S32768x512)
    (n : Fin 32768) (e : Fin 512) :
    shapeCast S32768x512 x h₁ (ix2 n e) = x (ix3 (tokB n) (tokS n) e) := by
  refine shapeCast_apply x h₁ (ix2 n e) (ix3 (tokB n) (tokS n) e) ?_
  rw [Shape.rowMajor_val_three, Shape.rowMajor_val_two]
  show (n.val / 4096 * 4096 + n.val % 4096) * 512 + e.val = n.val * 512 + e.val
  have h := Nat.div_add_mod n.val 4096
  omega

/-- The first eight features of the merged rows: row `n`, feature `q`. -/
theorem tokens_apply (x : FVec Ideal S8x4096x512 .f32) (h₁ : S8x4096x512.ShapeCasts S32768x512)
    (h₂ : S32768x512.Slices ![0, 0] S32768x8) (n : Fin 32768) (q : Fin 8) :
    extractStridedSlice S32768x8 ![0, 0] (shapeCast S32768x512 x h₁) h₂ (ix2 n q)
      = x (ix3 (tokB n) (tokS n) (feat q)) :=
  (first_features_apply (shapeCast S32768x512 x h₁) h₂ n q).trans (merged_apply x h₁ n (feat q))

/-- The eight angles viewed as a row: entry `(0, q)`. -/
theorem angles_apply (θ : FVec Ideal S8 .f32) (h : S8.ShapeCasts S1x8) (q : Fin 8) :
    shapeCast S1x8 θ h (ix2 (0 : Fin 1) q) = θ (ix1 q) := by
  refine shapeCast_apply θ h (ix2 (0 : Fin 1) q) (ix1 q) ?_
  rw [Shape.rowMajor_val_one, Shape.rowMajor_val_two]
  show q.val = 0 * 8 + q.val
  omega

/-- The first weight matrix transposed: entry `(q, f)`. -/
theorem w1_apply (W : FVec Ideal S2048x8 .f32) (h : S2048x8.Transposes [1, 0] S8x2048) (q : Fin 8) (f : Fin 2048) :
    transpose S8x2048 [1, 0] W h (ix2 q f) = W (ix2 f q) :=
  transpose_apply [1, 0] W h (ix2 q f) (ix2 f q) (fun b => by
    match b with
    | ⟨0, _⟩ => rfl
    | ⟨1, _⟩ => rfl)

/-- The second weight matrix transposed: entry `(f, e)`. -/
theorem w2_apply (W : FVec Ideal S512x2048 .f32) (h : S512x2048.Transposes [1, 0] S2048x512) (f : Fin 2048) (e : Fin 512) :
    transpose S2048x512 [1, 0] W h (ix2 f e) = W (ix2 e f) :=
  transpose_apply [1, 0] W h (ix2 f e) (ix2 e f) (fun b => by
    match b with
    | ⟨0, _⟩ => rfl
    | ⟨1, _⟩ => rfl)

/-! ## The staged arrays as the region finds them -/

variable (m : (ℓ : Loc nD τ sig) → Buf (Elt Ideal) ℓ)

/-- The token array: the slice of the merged input. -/
theorem found_tokens (c : Dev nD) :
    (V m c main_v1 : S32768x8.Idx → EReal)
      = extractStridedSlice S32768x8 ![0, 0]
          (shapeCast S32768x512 (m ((c : Thread nD τ).loc main_arg0)) shapeCasts_S8x4096x512_S32768x512)
          slices_S32768x512_S32768x8_0_0 := by
  show StableHlo.after hostOps0 (fun b => m (c, b)) (Proc.devRef .tc main_v1) = _
  after_results
  rfl

/-- The angle row. -/
theorem found_angles (c : Dev nD) :
    (V m c main_v2 : S1x8.Idx → EReal) = shapeCast S1x8 (m ((c : Thread nD τ).loc main_arg1)) shapeCasts_S8_S1x8 := by
  show StableHlo.after hostOps0 (fun b => m (c, b)) (Proc.devRef .tc main_v2) = _
  after_results
  rfl

/-- The first staged matrix. -/
theorem found_w1 (c : Dev nD) :
    (V m c main_v4 : S8x2048.Idx → EReal)
      = transpose S8x2048 [1, 0] (m ((c : Thread nD τ).loc main_arg2)) transposes_S2048x8_S8x2048_1_0 := by
  show StableHlo.after hostOps0 (fun b => m (c, b)) (Proc.devRef .tc main_v4) = _
  after_results
  rfl

/-- The second staged matrix. -/
theorem found_w2 (c : Dev nD) :
    (V m c main_v6 : S2048x512.Idx → EReal)
      = transpose S2048x512 [1, 0] (m ((c : Thread nD τ).loc main_arg3)) transposes_S512x2048_S2048x512_1_0 := by
  show StableHlo.after hostOps0 (fun b => m (c, b)) (Proc.devRef .tc main_v6) = _
  after_results
  rfl

end Cert.Ffn.Staged

end
-- ==== Proof.RegionResult.lean ====
/-
  What the region leaves in its output array: `ffnRows` of the four arguments.

  The grid has 32 points. Point `t` stages rows `1024 t … 1024 t + 1023` of the token array, the whole angle row
  and both whole weight matrices, and writes back rows `1024 t … 1024 t + 1023` of the `[32768, 512]` output. An
  entry of a block sits in its array, on each axis, at the block's index times the block's size plus the entry's own
  coordinate; so entry `(p, e)` of what point `t` writes back is output entry `(1024 t + p, e)`, and it is
  `token` of row `1024 t + p` of the token array — the output's own row. Every output row `r` is written by the one
  point `r / 1024`, so the blocks cover the array and it ends holding `ffnRows` everywhere.
-/
import proofs.«176368_j65481071397135_2_alg».proof.Proof.Gen.KernelIdeal.Frame
import proofs.«176368_j65481071397135_2_alg».proof.Proof.TokenMap
import proofs.«176368_j65481071397135_2_alg».proof.Proof.BodyValue
import proofs.«176368_j65481071397135_2_alg».proof.Proof.StagedArrays
import Idealize.ShloMosaic.Lib.Pipeline.Value
import Idealize.ShloMosaic.Lib.ValueIdx

noncomputable section

namespace Cert.Ffn.Region

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## Where the blocks sit -/

theorem offsets_zero : (![0, 0] : Fin 2 → Nat) = fun _ => 0 := funext fun a => by fin_cases a <;> rfl

/-- The printed index maps, decided over the 32 points: the token window and the output window are at block row
    `t`, the angle row and the weight matrices at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point is one of 32. -/
theorem point_lt (t : Fin cfg0.N) : t.val < 32 := lt_of_lt_of_eq t.isLt N_0

/-- Row `p` of point `t`'s block is row `1024 t + p` of the array. -/
abbrev rowOf (t : Fin cfg0.N) (p : Fin 1024) : Fin 32768 :=
  ⟨t.val * 1024 + p.val, by have := point_lt t; have := p.isLt; omega⟩

theorem tokens_at (t : Fin cfg0.N) (p : Fin 1024) (q : Fin 8) :
    ((cfg0.win 0).blk t).view.emb (ix2 p q) = ix2 (rowOf t p) q := by
  obtain ⟨e0, e1, -⟩ := index_maps t
  funext a; apply Fin.ext
  match a with
  | ⟨0, _⟩ => show win0_0.index t (0 : Fin 2) * 1024 + 1 * p.val = t.val * 1024 + p.val; omega
  | ⟨1, _⟩ => show win0_0.index t (1 : Fin 2) * 8 + 1 * q.val = q.val; omega

theorem angles_at (t : Fin cfg0.N) (z : Fin 1) (q : Fin 8) :
    ((cfg0.win 1).blk t).view.emb (ix2 z q) = ix2 (0 : Fin 1) q := by
  obtain ⟨-, -, e0, e1, -⟩ := index_maps t
  funext a; apply Fin.ext
  match a with
  | ⟨0, _⟩ => show win0_1.index t (0 : Fin 2) * 1 + 1 * z.val = 0; have := z.isLt; omega
  | ⟨1, _⟩ => show win0_1.index t (1 : Fin 2) * 8 + 1 * q.val = q.val; omega

theorem w1_at (t : Fin cfg0.N) (q : Fin 8) (f : Fin 2048) :
    ((cfg0.win 2).blk t).view.emb (ix2 q f) = ix2 q f := by
  obtain ⟨-, -, -, -, e0, e1, -⟩ := index_maps t
  funext a; apply Fin.ext
  match a with
  | ⟨0, _⟩ => show win0_2.index t (0 : Fin 2) * 8 + 1 * q.val = q.val; omega
  | ⟨1, _⟩ => show win0_2.index t (1 : Fin 2) * 2048 + 1 * f.val = f.val; omega

theorem w2_at (t : Fin cfg0.N) (f : Fin 2048) (e : Fin 512) :
    ((cfg0.win 3).blk t).view.emb (ix2 f e) = ix2 f e := by
  obtain ⟨-, -, -, -, -, -, e0, e1, -⟩ := index_maps t
  funext a; apply Fin.ext
  match a with
  | ⟨0, _⟩ => show win0_3.index t (0 : Fin 2) * 2048 + 1 * f.val = f.val; omega
  | ⟨1, _⟩ => show win0_3.index t (1 : Fin 2) * 512 + 1 * e.val = e.val; omega

theorem out_at (t : Fin cfg0.N) (p : Fin 1024) (e : Fin 512) :
    ((cfg0.win 4).blk t).view.emb (ix2 p e) = ix2 (rowOf t p) e := by
  obtain ⟨-, -, -, -, -, -, -, -, e0, e1⟩ := index_maps t
  funext a; apply Fin.ext
  match a with
  | ⟨0, _⟩ => show win0_4.index t (0 : Fin 2) * 1024 + 1 * p.val = t.val * 1024 + p.val; omega
  | ⟨1, _⟩ => show win0_4.index t (1 : Fin 2) * 512 + 1 * e.val = e.val; omega

/-! ## The input blocks, entry by entry, in terms of the arguments -/

theorem tokens_block (c : Dev nD) (t : Fin cfg0.N) (p : Fin 1024) (q : Fin 8) :
    iblk m c 0 t (ix2 p q)
      = m ((c : Thread nD τ).loc main_arg0) (ix3 (tokB (rowOf t p)) (tokS (rowOf t p)) (feat q)) := by
  show V m c main_v1 (((cfg0.win 0).blk t).view.emb (ix2 p q)) = _
  rw [tokens_at, Staged.found_tokens]
  exact Staged.tokens_apply _ _ _ _ _

theorem angles_block (c : Dev nD) (t : Fin cfg0.N) (q : Fin 8) :
    iblk m c 1 t (ix2 (0 : Fin 1) q) = m ((c : Thread nD τ).loc main_arg1) (ix1 q) := by
  show V m c main_v2 (((cfg0.win 1).blk t).view.emb (ix2 (0 : Fin 1) q)) = _
  rw [angles_at, Staged.found_angles]
  exact Staged.angles_apply _ _ _

theorem w1_block (c : Dev nD) (t : Fin cfg0.N) (q : Fin 8) (f : Fin 2048) :
    iblk m c 2 t (ix2 q f) = m ((c : Thread nD τ).loc main_arg2) (ix2 f q) := by
  show V m c main_v4 (((cfg0.win 2).blk t).view.emb (ix2 q f)) = _
  rw [w1_at, Staged.found_w1]
  exact Staged.w1_apply _ _ _ _

theorem w2_block (c : Dev nD) (t : Fin cfg0.N) (f : Fin 2048) (e : Fin 512) :
    iblk m c 3 t (ix2 f e) = m ((c : Thread nD τ).loc main_arg3) (ix2 e f) := by
  show V m c main_v6 (((cfg0.win 3).blk t).view.emb (ix2 f e)) = _
  rw [w2_at, Staged.found_w2]
  exact Staged.w2_apply _ _ _ _

/-! ## What a point writes back -/

/-- Point `t` writes back block `t` of `ffnRows` of the arguments. -/
theorem flushed_eq (c : Dev nD) (t : Fin cfg0.N) :
    (dats m 0 c).flushed 4 t
      = ((cfg0.win 4).blk t).view.read (Elt Ideal)
          (ffnRows (m ((c : Thread nD τ).loc main_arg0)) (m ((c : Thread nD τ).loc main_arg1))
            (m ((c : Thread nD τ).loc main_arg2)) (m ((c : Thread nD τ).loc main_arg3))) := by
  show (cfg0.win 4).cut (grid0.coords t) ((dats m 0 c).after 4 t) = _
  rw [after0_4]
  unfold out0_4
  rw [View.canon_unit_zero offsets_zero]
  simp only [View.ld_unit_zero (S := S1024x8) offsets_zero, View.ld_unit_zero (S := S1x8) offsets_zero,
    View.ld_unit_zero (S := S8x2048) offsets_zero, View.ld_unit_zero (S := S2048x512) offsets_zero]
  funext j
  obtain ⟨p, e, rfl⟩ : ∃ (p : Fin 1024) (e : Fin 512), j = ix2 p e := ⟨j 0, j 1, eq_ix2 j⟩
  show k0_pay1 (iblk m c 0 t) (iblk m c 1 t) (iblk m c 2 t) (iblk m c 3 t) (ix2 p e)
    = ffnRows _ _ _ _ (((cfg0.win 4).blk t).view.emb (ix2 p e))
  rw [out_at, ffnRows_apply]
  refine (Body.stored_apply (iblk m c 0 t) (iblk m c 1 t) (iblk m c 2 t) (iblk m c 3 t) p e).trans ?_
  unfold ffnAt
  have h0 : (fun q : Fin 8 => iblk m c 0 t (ix2 p q))
      = fun q => m ((c : Thread nD τ).loc main_arg0) (ix3 (tokB (rowOf t p)) (tokS (rowOf t p)) (feat q)) :=
    funext fun q => tokens_block m c t p q
  have h1 : (fun q : Fin 8 => iblk m c 1 t (ix2 (0 : Fin 1) q)) = fun q => m ((c : Thread nD τ).loc main_arg1) (ix1 q) :=
    funext fun q => angles_block m c t q
  have h2 : (fun (f : Fin 2048) (q : Fin 8) => iblk m c 2 t (ix2 q f))
      = fun f q => m ((c : Thread nD τ).loc main_arg2) (ix2 f q) :=
    funext fun f => funext fun q => w1_block m c t q f
  have h3 : (fun f : Fin 2048 => iblk m c 3 t (ix2 f e)) = fun f => m ((c : Thread nD τ).loc main_arg3) (ix2 e f) :=
    funext fun f => w2_block m c t f e
  rw [h0, h1, h2, h3]

/-! ## The blocks cover the array -/

/-- An output index is in point `t`'s block iff each coordinate is in the block's range on its axis. -/
theorem mem_block (t : Fin cfg0.N) (i : S32768x512.Idx) :
    i ∈ ((cfg0.win 4).blk t).view.set
      ↔ ∀ a : Fin 2, win0_4.index t a * S1024x512.size a ≤ (i a).val
          ∧ (i a).val < win0_4.index t a * S1024x512.size a + S1024x512.size a := by
  show i ∈ ((View.whole main_v7).slice (win0_4.rect t)).set ↔ _
  rw [View.set_slice_whole, Rect.mem_set_unit]
  exact Iff.rfl

/-- Row `r` is written by point `r / 1024`. -/
theorem covered (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  have ht : t.val = (i 0).val / 1024 := rfl
  obtain ⟨-, -, -, -, -, -, -, -, e0, e1⟩ := index_maps t
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    have := Nat.div_add_mod (i 0).val 1024
    have := Nat.mod_lt (i 0).val (by decide : 0 < 1024)
    omega
  | ⟨1, _⟩ =>
    show win0_4.index t (1 : Fin 2) * 512 ≤ (i 1).val ∧ (i 1).val < win0_4.index t (1 : Fin 2) * 512 + 512
    omega

/-! ## The output array after the region -/

theorem output_eq (c : Dev nD) :
    (dats m 0 c).arrAt 4 cfg0.N
      = ffnRows (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) covered

end Cert.Ffn.Region

end
-- ==== Proof.KernelValue.lean ====
/-
  The kernel's result: `ffn` of its four arguments.

  After the region the program splits the merged token axis of the `[32768, 512]` output back into `[8, 4096]`
  (a reshape). A reshape keeps row-major positions, and token `(b, s)` is row `4096 b + s` of the merged axis, so
  entry `(b, s, e)` of the result is entry `(4096 b + s, e)` of the region's output, which is `token` of token
  `((4096 b + s) / 4096, (4096 b + s) % 4096) = (b, s)`.
-/
import proofs.«176368_j65481071397135_2_alg».proof.Proof.Gen.KernelIdeal.Frame
import proofs.«176368_j65481071397135_2_alg».proof.Proof.TokenMap
import proofs.«176368_j65481071397135_2_alg».proof.Proof.RegionResult
import Idealize.ShloMosaic.Lib.Pipeline.Value
import Idealize.ShloMosaic.Lib.StableHlo.Run
import Idealize.ShloMosaic.Lib.ValueIdx

noncomputable section

namespace Cert.Ffn.Kernel

open Cert.KernelIdeal Cert.KernelIdeal.Gen
open Idealize.ShloMosaic Idealize.ShloMosaic.ValueIdx Idealize.ShloMosaic.TcCoe Idealize.SL.Sem
open Idealize.ShloMosaic.StableHlo

/-! ## Splitting the token axis -/

/-- Row `4096 b + s` of the merged axis. -/
abbrev rowOfToken (b : Fin 8) (s : Fin 4096) : Fin 32768 :=
  ⟨b.val * 4096 + s.val, by have := b.isLt; have := s.isLt; omega⟩

theorem tokB_row (b : Fin 8) (s : Fin 4096) : tokB (rowOfToken b s) = b :=
  Fin.ext (by show (b.val * 4096 + s.val) / 4096 = b.val; have := s.isLt; omega)

theorem tokS_row (b : Fin 8) (s : Fin 4096) : tokS (rowOfToken b s) = s :=
  Fin.ext (by show (b.val * 4096 + s.val) % 4096 = s.val; have := s.isLt; omega)

/-- The rows split back into tokens: the reshape of `ffnRows` is `ffn`. -/
theorem split_rows (x : (⟨3, ![8, 4096, 512]⟩ : Shape).Idx → EReal) (θ : (⟨1, ![8]⟩ : Shape).Idx → EReal)
    (W₁ : (⟨2, ![2048, 8]⟩ : Shape).Idx → EReal) (W₂ : (⟨2, ![512, 2048]⟩ : Shape).Idx → EReal)
    (h : S32768x512.ShapeCasts S8x4096x512) :
    shapeCast S8x4096x512 (ffnRows x θ W₁ W₂) h = ffn x θ W₁ W₂ := by
  funext i
  obtain ⟨b, s, e, rfl⟩ : ∃ (b : Fin 8) (s : Fin 4096) (e : Fin 512), i = ix3 b s e := ⟨i 0, i 1, i 2, eq_ix3 i⟩
  refine (shapeCast_apply (ffnRows x θ W₁ W₂) h (ix3 b s e) (ix2 (rowOfToken b s) e) ?_).trans ?_
  · rw [Shape.rowMajor_val_three, Shape.rowMajor_val_two]
    rfl
  · rw [ffnRows_apply, ffn_apply, tokB_row, tokS_row]

/-! ## The run -/

variable (m : (ℓ : Loc nD τ sig) → Buf (Elt Ideal) ℓ) (ρ : Dev nD → PrngReg)

/-- What the line after the region leaves in the result buffer. -/
theorem result_eq (c : Dev nD) :
    Pipeline.afterTail₀ cfgs (dats m) 0 (V0 m) [hostOps1] c main_v8
      = ffn (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v8) = _
  after_results
  refine Eq.trans ?_ (split_rows _ _ _ _ shapeCasts_S32768x512_S8x4096x512)
  refine congrArg (fun A => shapeCast S8x4096x512 A shapeCasts_S32768x512_S8x4096x512) ?_
  exact (Pipeline.withArrays_arr spec0 launch0.win.arr_inj c _ _ 4).trans (Region.output_eq m c)

/-- Every weakly fair execution of the kernel's program ends with the result at `ffn` of the arguments and the
    arguments as they were. -/
theorem run : θ_run defs (onTc (τ := τ) (main (F := Ideal))) ⟨m, fun _ => 0, ρ⟩ fun r => ∀ c : Dev nD,
      r.2.mem ((c.tc : Thread nD τ).loc main_v8)
        = ffn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Ffn.Kernel

end
-- ==== Proof.lean ====
/- The proof of `Cert.Claim` (proofs.«176368_j65481071397135_2_alg».proof.Defs).

   Both programs compute, for each of 8 × 4096 tokens and each of 512 output channels,
       out e = ∑ f, max (∑ q, cos (u q + θ q) · W₁ f q) 0 · W₂ e f
   on the extended reals, where `u` is the token's first eight features (Proof/TokenMap.lean: `token`, `ffn`).
   The kernel works on the token axes merged into 32768 rows, 1024 rows per grid point, with both weight matrices
   transposed beforehand; the reference contracts the three-axis arrays directly. At the ideal instance a change of
   float format is the identity and a matrix product into a zero accumulator is the plain sum over the contracted
   coordinate, on both sides with the factors in the same order, so the two results are the same sums term by term
   and no finiteness of the inputs is used.
     * Proof/ReferenceValue.lean — the reference's result is `ffn` of the arguments;
     * Proof/BodyValue.lean — what the kernel body stores, entry by entry;
     * Proof/StagedArrays.lean — the arrays the region stages, entry by entry, in terms of the arguments;
     * Proof/RegionResult.lean — the region's output array is `ffnRows` of the arguments;
     * Proof/KernelValue.lean — the reshape after the region, and the kernel's run with its result at `ffn`.
   The three frames are the generated frame runs (the reference's is its run with the result dropped), and the
   kernel's idealization rewrote nothing, so that conjunct is `True`. -/
import proofs.«176368_j65481071397135_2_alg».proof.Defs
import proofs.«176368_j65481071397135_2_alg».proof.Proof.Gen.Kernel
import proofs.«176368_j65481071397135_2_alg».proof.Proof.Gen.Kernel.Skeleton
import proofs.«176368_j65481071397135_2_alg».proof.Proof.Gen.Kernel.Launch
import proofs.«176368_j65481071397135_2_alg».proof.Proof.Gen.Kernel.Points
import proofs.«176368_j65481071397135_2_alg».proof.Proof.Gen.Kernel.Frame
import proofs.«176368_j65481071397135_2_alg».proof.Proof.Gen.KernelIdeal
import proofs.«176368_j65481071397135_2_alg».proof.Proof.Gen.KernelIdeal.Skeleton
import proofs.«176368_j65481071397135_2_alg».proof.Proof.Gen.KernelIdeal.Launch
import proofs.«176368_j65481071397135_2_alg».proof.Proof.Gen.KernelIdeal.Points
import proofs.«176368_j65481071397135_2_alg».proof.Proof.Gen.KernelIdeal.Frame
import proofs.«176368_j65481071397135_2_alg».proof.Proof.Gen.ReferenceIdeal
import proofs.«176368_j65481071397135_2_alg».proof.Proof.Gen.ReferenceIdeal.Run
import proofs.«176368_j65481071397135_2_alg».proof.Proof.Gen.ReferenceIdeal.Read
import proofs.«176368_j65481071397135_2_alg».proof.Proof.Gen.Pre_finite_inputs
import proofs.«176368_j65481071397135_2_alg».proof.Proof.TokenMap
import proofs.«176368_j65481071397135_2_alg».proof.Proof.ReferenceValue
import proofs.«176368_j65481071397135_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with `ffn` of those arguments. -/
theorem algebraic : Cert.algebraic_KernelIdeal_ReferenceIdeal := by
  intro m ρ m' ρ' _ hagree
  refine ⟨_, Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Ffn.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
